-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S16384x1024 .f32) (main_arg1 : FVec F S1024x2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S16384x1024 : Shape := ⟨2, ![16384, 1024]⟩
abbrev S1024x2048 : Shape := ⟨2, ![1024, 2048]⟩
abbrev S16384x2048 : Shape := ⟨2, ![16384, 2048]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  reduces_S1024x1024_S1024 : S1024x1024.Reduces [0] S1024
  shapeCasts_S1024_S1x1024 : S1024.ShapeCasts S1x1024
  bitsLt_bf16_f32 : FTy.bits .bf16 < FTy.bits .f32
  broadcasts_S512x1_S512x1024 : S512x1.Broadcasts S512x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x2048.size a
  hwx0_1 : ∀ i : grid0.Coords, EltTy.bits .f32 = 32 ∨ (Rect.block (s := S1024x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x2048.size a
  hwx0_2 : ∀ i : grid0.Coords, EltTy.bits .f32 = 32 ∨ (Rect.block (s := S16384x2048) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x2048, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1024x2048_S2048_d0 : S1024x2048.ReducesTo [0] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Spec.lean ====
/-
  The expanded squared distance between the rows of one matrix and the columns of another.

  For `x : M×K` and `w : K×N` the entry at `(r, c)` is
  `(∑ₖ x(r,k)²) + (∑ₖ w(k,c)²) − two · ∑ₖ x(r,k)·w(k,c)`
  on the extended reals: the squared norm of row `r`, plus the squared norm of column `c`, minus `two` times their
  inner product. The factor is a parameter because both programs carry it as the same float word, which is never
  evaluated. The three sums run over the one contracted axis, so a row block of `x` and a column block of `w`
  determine the corresponding block of the result (`expand_block`).
-/
import Idealize.ShloMosaic.PureOps.Ideal
import Idealize.ShloMosaic.Lib.ValueIdx

noncomputable section

namespace Cert.SqDist

open Idealize.ShloMosaic Idealize.ShloMosaic.ValueIdx

/-- The expanded squared distance of row `i 0` of `x` and column `i 1` of `w`. -/
def expand (M K N : ℕ) (two : EReal) (x : (⟨2, ![M, K]⟩ : Shape).Idx → EReal) (w : (⟨2, ![K, N]⟩ : Shape).Idx → EReal) :
    (⟨2, ![M, N]⟩ : Shape).Idx → EReal :=
  fun i => (∑ k : Fin K, x (ix2 (i 0) k) * x (ix2 (i 0) k)) + (∑ k : Fin K, w (ix2 k (i 1)) * w (ix2 k (i 1)))
    - two * ∑ k : Fin K, x (ix2 (i 0) k) * w (ix2 k (i 1))

/-- The entry at `(r, c)`, with the coordinates written out. -/
theorem expand_ix2 (M K N : ℕ) (two : EReal) (x : (⟨2, ![M, K]⟩ : Shape).Idx → EReal) (w : (⟨2, ![K, N]⟩ : Shape).Idx → EReal)
    (r : Fin M) (c : Fin N) :
    expand M K N two x w (ix2 r c) = (∑ k : Fin K, x (ix2 r k) * x (ix2 r k)) + (∑ k : Fin K, w (ix2 k c) * w (ix2 k c))
      - two * ∑ k : Fin K, x (ix2 r k) * w (ix2 k c) := rfl

/-- A block of the result from blocks of the operands: if `xb` is rows `r₀ + ·` of `x` and `wb` is columns `c₀ + ·` of
    `w`, then the entry `(p, q)` computed from the blocks is the entry `(r, c)` of the whole, for `r = r₀ + p`, `c = c₀ + q`
    (stated through the two row and column correspondences, whatever the offsets are). -/
theorem expand_block {M K N M' N' : ℕ} (two : EReal) (x : (⟨2, ![M, K]⟩ : Shape).Idx → EReal) (w : (⟨2, ![K, N]⟩ : Shape).Idx → EReal)
    (xb : (⟨2, ![M', K]⟩ : Shape).Idx → EReal) (wb : (⟨2, ![K, N']⟩ : Shape).Idx → EReal)
    (p : Fin M') (q : Fin N') (r : Fin M) (c : Fin N)
    (hx : ∀ k : Fin K, xb (ix2 p k) = x (ix2 r k)) (hw : ∀ k : Fin K, wb (ix2 k q) = w (ix2 k c)) :
    expand M' K N' two xb wb (ix2 p q) = expand M K N two x w (ix2 r c) := by
  rw [expand_ix2, expand_ix2]
  simp only [hx, hw]

end Cert.SqDist

end
-- ==== Proof.Payload.lean ====
/-
  What the kernel body stores, at an index of its block.

  The body loads a `512×1024` block `xb` of `x` and a `1024×1024` block `wb` of `w` and stores
  `(rowsums(xb²) kept as a column, broadcast) + (colsums(wb²) kept as a row, broadcast) − 2·(xb · wb)`;
  the product is taken on operands narrowed to bf16, which on the extended reals is the identity, into a zero
  accumulator. At `(p, q)` that is the expanded squared distance of row `p` of `xb` and column `q` of `wb`.
-/
import proofs.«147707_j54047868452973_1_alg».proof.Proof.Gen.KernelIdeal.Skeleton
import proofs.«147707_j54047868452973_1_alg».proof.Proof.LibKeepdims
import proofs.«147707_j54047868452973_1_alg».proof.Proof.LibPlainDot
import proofs.«147707_j54047868452973_1_alg».proof.Proof.Spec

noncomputable section

namespace Cert.KernelIdeal.Hand

open Cert.KernelIdeal Cert.KernelIdeal.Gen Idealize.ShloMosaic Idealize.ShloMosaic.ValueIdx

/-- The float word `2.0` the body multiplies the product by, as an extended real (never evaluated). -/
abbrev two : EReal := Ideal.ofBits .f32 0x40000000#32

/-- The stored value at `(p, q)`: row `p` of the `x` block against column `q` of the `w` block. -/
theorem pay_apply (xb : Vec Ideal S512x1024 .f32) (wb : Vec Ideal S1024x1024 .f32) (p : Fin 512) (q : Fin 1024) :
    k0_pay1 (F := Ideal) xb wb (ix2 p q) = SqDist.expand 512 1024 1024 two xb wb (ix2 p q) := by
  unfold k0_pay1
  rw [SqDist.expand_ix2]
  refine congrArg₂ (· - ·) (congrArg₂ (· + ·) ?_ ?_) (congrArg (two * ·) ?_)
  · exact Keepdims.rowSum_keep_bcast_apply (mulf xb xb) _ _ _ _ _ _ p q
  · exact Keepdims.colSum_keep_bcast_apply (mulf wb wb) _ _ _ _ _ _ p q
  · exact PlainDot.matmul_zero_apply 512 1024 1024 none _ _ (ix2 p q)

end Cert.KernelIdeal.Hand

end
-- ==== Proof.Blocks.lean ====
/-
  From the blocks each grid point writes to the whole result array.

  The grid is `32 × 2`. At point `(i, j)` the body sees rows `512·i …` of `x` (all `1024` columns) and columns
  `1024·j …` of `w` (all `1024` rows), and writes block `(i, j)` of the result. Since an entry of the expanded squared
  distance depends only on one row of `x` and one column of `w`, the block a point writes is that block of the one
  whole-array function `SqDist.expand … x w`; the `64` blocks tile the `16384 × 2048` array (entry `(r, c)` lies in
  block `(r / 512, c / 1024)`), so the array ends holding that function.
-/
import proofs.«147707_j54047868452973_1_alg».proof.Proof.Gen.KernelIdeal.Value
import proofs.«147707_j54047868452973_1_alg».proof.Proof.Payload
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The index maps, decided over the 64 grid points: the `x` window follows the output's row block and stays at column
    block `0`; the `w` window stays at row block `0` and follows the output's column block; the output's block indices
    stay inside `32 × 2`. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 31 ∧ win0_2.index t (1 : Fin 2) ≤ 1 :=
  (by decide +kernel : ∀ t : Fin grid0.N, _)

/-- Every block of the `32 × 2` tiling is some grid point's. -/
theorem every_block : ∀ (q0 : Fin 32) (q1 : Fin 2), ∃ t : Fin cfg0.N, win0_2.index t = ![q0.val, q1.val] :=
  (by decide +kernel : ∀ (q0 : Fin 32) (q1 : Fin 2), ∃ t : Fin grid0.N, win0_2.index t = ![q0.val, q1.val])

/-- One stored entry, over variable arrays and blocks: if `xb` is the row block `i0` of `X` and `wb` the column block `i1`
    of `W`, the body's value at `j` is the whole-array function at the entry `i` that sits at `j` inside block `(i0, i1)`. -/
theorem point_eq (X : S16384x1024.Idx → EReal) (W : S1024x2048.Idx → EReal)
    (xb : Vec Ideal S512x1024 .f32) (wb : Vec Ideal S1024x1024 .f32) (i0 i1 : ℕ)
    (hx : ∀ (y : S512x1024.Idx) (z : S16384x1024.Idx), (z 0).val = i0 * 512 + (y 0).val → (z 1).val = (y 1).val → xb y = X z)
    (hw : ∀ (y : S1024x1024.Idx) (z : S1024x2048.Idx), (z 0).val = (y 0).val → (z 1).val = i1 * 1024 + (y 1).val → wb y = W z)
    (j : S512x1024.Idx) (i : S16384x2048.Idx)
    (hi0 : (i 0).val = i0 * 512 + (j 0).val) (hi1 : (i 1).val = i1 * 1024 + (j 1).val) :
    k0_pay1 (F := Ideal) xb wb j = SqDist.expand 16384 1024 2048 two X W i := by
  obtain ⟨p, q, rfl⟩ : ∃ (p : Fin 512) (q : Fin 1024), j = ix2 p q := ⟨j 0, j 1, eq_ix2 j⟩
  obtain ⟨r, s, rfl⟩ : ∃ (r : Fin 16384) (s : Fin 2048), i = ix2 r s := ⟨i 0, i 1, eq_ix2 i⟩
  rw [pay_apply]
  exact SqDist.expand_block two X W xb wb p q r s (fun k => hx _ _ hi0 rfl) (fun k => hw _ _ rfl hi1)

/-- What grid point `t` writes back is block `t` of the expanded squared distance of the two argument arrays. -/
theorem flushed_eq (c : Dev nD) (t : Fin cfg0.N) :
    (dats m 0 c).flushed 2 t = ((cfg0.win 2).blk t).view.read (Elt Ideal)
      (SqDist.expand 16384 1024 2048 two (V m c main_arg0) (V m c main_arg1)) := by
  rw [Cert.KernelIdeal.Value.flushed2]
  unfold out0_2
  rw [View.canon_unit_zero zero_off]
  simp only [View.ld_unit_zero (S := S512x1024) zero_off, View.ld_unit_zero (S := S1024x1024) zero_off]
  obtain ⟨e0, e1, e2, e3, e4, e5⟩ := index_maps t
  funext j
  show k0_pay1 (F := Ideal) (iblk m c 0 t) (iblk m c 1 t) j
    = SqDist.expand 16384 1024 2048 two (V m c main_arg0) (V m c main_arg1) (((cfg0.win 2).blk t).view.emb j)
  refine point_eq (V m c main_arg0) (V m c main_arg1) (iblk m c 0 t) (iblk m c 1 t)
    (win0_2.index t (0 : Fin 2)) (win0_2.index t (1 : Fin 2)) ?_ ?_ j _ ?_ ?_
  · intro y z h0 h1
    show V m c main_arg0 (((cfg0.win 0).blk t).view.emb y) = V m c main_arg0 z
    refine congrArg (V m c main_arg0) (funext fun a => Fin.ext ?_)
    match a with
    | ⟨0, _⟩ => show win0_0.index t (0 : Fin 2) * 512 + 1 * (y 0).val = (z 0).val; omega
    | ⟨1, _⟩ => show win0_0.index t (1 : Fin 2) * 1024 + 1 * (y 1).val = (z 1).val; omega
  · intro y z h0 h1
    show V m c main_arg1 (((cfg0.win 1).blk t).view.emb y) = V m c main_arg1 z
    refine congrArg (V m c main_arg1) (funext fun a => Fin.ext ?_)
    match a with
    | ⟨0, _⟩ => show win0_1.index t (0 : Fin 2) * 1024 + 1 * (y 0).val = (z 0).val; omega
    | ⟨1, _⟩ => show win0_1.index t (1 : Fin 2) * 1024 + 1 * (y 1).val = (z 1).val; omega
  · show win0_2.index t (0 : Fin 2) * 512 + 1 * (j 0).val = _; omega
  · show win0_2.index t (1 : Fin 2) * 1024 + 1 * (j 1).val = _; omega

/-- An index of the result array is in point `t`'s block iff each coordinate is in the block's range on its axis. -/
theorem mem_blk (t : Fin cfg0.N) (i : S16384x2048.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- The blocks tile the array: entry `(r, c)` is in the block of the point whose output block is `(r / 512, c / 1024)`. -/
theorem cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := every_block ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The result array after the run is the expanded squared distance of the two arguments as launched. -/
theorem final (c : Dev nD) : (dats m 0 c).arrAt 2 cfg0.N
    = SqDist.expand 16384 1024 2048 two (m ((c : Thread nD τ).loc main_arg0)) (m ((c : Thread nD τ).loc main_arg1)) :=
  (dats m 0 c).arrAt_eq_of_cover 2 (SqDist.expand 16384 1024 2048 two (V m c main_arg0) (V m c main_arg1))
    (fun t _ => flushed_eq m c t) cover

/-- The kernel's run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v0)
        = SqDist.expand 16384 1024 2048 two (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Hand

end
-- ==== Proof.RefValue.lean ====
/-
  The reference's result is the expanded squared distance of its two arguments.

  The reference squares `x`, sums each row (from an initial zero), keeps the sums as a column and broadcasts them;
  squares `w`, sums each column, keeps the sums as a row and broadcasts them; adds the two; and subtracts `2.0` times
  the matrix product `x · w`. Read at `(r, c)`, stage by stage, every layout step names the same row `r` or column `c`,
  the initial zero drops out of each sum, and what is left is `SqDist.expand` entry for entry.
-/
import proofs.«147707_j54047868452973_1_alg».proof.Proof.Gen.ReferenceIdeal.Read
import proofs.«147707_j54047868452973_1_alg».proof.Proof.Spec

noncomputable section

namespace Cert.ReferenceIdeal.Hand

open Cert.ReferenceIdeal Cert.ReferenceIdeal.Gen Cert.ReferenceIdeal.Read Idealize.ShloMosaic Idealize.ShloMosaic.ValueIdx

/-- Through the two broadcasts and the kept axis, the row sum read at `(r, c)` runs over row `r` of `x`. -/
theorem row_idx (r : Fin 16384) (c : Fin 2048) (k : Fin 1024) :
    idx_main_v1 (idx_main_v2 (idx_main_v7 (ix2 r c))) k = ix2 r k :=
  funext fun a => Fin.ext (by match a with | ⟨0, _⟩ => rfl | ⟨1, _⟩ => rfl)

/-- Through the two broadcasts and the kept axis, the column sum read at `(r, c)` runs over column `c` of `w`. -/
theorem col_idx (r : Fin 16384) (c : Fin 2048) (k : Fin 1024) :
    idx_main_v4 (idx_main_v5 (idx_main_v8 (ix2 r c))) k = ix2 k c :=
  funext fun a => Fin.ext (by match a with | ⟨0, _⟩ => rfl | ⟨1, _⟩ => rfl)

/-- The product at `(r, c)` reads row `r` of `x` … -/
theorem lhs_idx (r : Fin 16384) (c : Fin 2048) (k : Fin 1024) : lidx_main_v6 (ix2 r c) k = ix2 r k :=
  funext fun a => Fin.ext (by match a with | ⟨0, _⟩ => rfl | ⟨1, _⟩ => rfl)

/-- … against column `c` of `w`. -/
theorem rhs_idx (r : Fin 16384) (c : Fin 2048) (k : Fin 1024) : ridx_main_v6 (ix2 r c) k = ix2 k c :=
  funext fun a => Fin.ext (by match a with | ⟨0, _⟩ => rfl | ⟨1, _⟩ => rfl)

/-- The reference's last stage at `(r, c)`. -/
theorem ref_apply (x : FVec Ideal S16384x1024 .f32) (w : FVec Ideal S1024x2048 .f32) (r : Fin 16384) (c : Fin 2048) :
    val_main_v12 (F := Ideal) x w (ix2 r c)
      = SqDist.expand 16384 1024 2048 (Ideal.ofBits .f32 0x40000000#32) x w (ix2 r c) := by
  rw [val_main_v12_apply, val_main_v9_apply, val_main_v11_apply, val_main_v7_apply, val_main_v8_apply, val_main_v10_apply,
    val_main_v6_apply, val_main_v2_apply, val_main_v5_apply, val_main_v1_apply, val_main_v4_apply, SqDist.expand_ix2]
  simp only [row_idx, col_idx, lhs_idx, rhs_idx, val_main_v0_apply, val_main_v3_apply, val_main_cst_apply,
    val_main_cst_0_apply, val_main_cst_1_apply, Ideal.ofBits_def, Ideal.addf_def, Ideal.subf_def, Ideal.mulf_def,
    Ideal.ofBits_zero_f32, zero_add]

/-- The reference's result array, whole. -/
theorem ref_eq (x : FVec Ideal S16384x1024 .f32) (w : FVec Ideal S1024x2048 .f32) :
    val_main_v12 (F := Ideal) x w = SqDist.expand 16384 1024 2048 (Ideal.ofBits .f32 0x40000000#32) x w := by
  funext i
  obtain ⟨r, c, rfl⟩ : ∃ (r : Fin 16384) (c : Fin 2048), i = ix2 r c := ⟨i 0, i 1, eq_ix2 i⟩
  exact ref_apply x w r c

end Cert.ReferenceIdeal.Hand

end
-- ==== Proof.lean ====
/-
  Pairwise squared distances, `out[b, o] = ∑ᵢ (x[b, i] − w[i, o])²`, computed in both programs in the expanded form
  `‖x_b‖² + ‖w_o‖² − 2·⟨x_b, w_o⟩`.

  The kernel walks a `32 × 2` grid; at each point it holds `512` whole rows of `x` and `1024` whole columns of `w`, so
  every one of its three sums runs over the full contracted axis, and the block it writes is a block of ONE function
  of the two arrays, `SqDist.expand` (Spec.lean): entry `(r, c)` is
  `(∑ₖ x(r,k)²) + (∑ₖ w(k,c)²) − 2·∑ₖ x(r,k)·w(k,c)` on the extended reals. The kernel takes its product on operands
  narrowed to bf16 into a zero accumulator; on the extended reals narrowing is the identity and the product is the plain
  sum (Payload.lean). The `64` blocks tile the result (Blocks.lean). The reference computes the same three sums over
  whole arrays, each from an initial zero, with the same grouping `(a + b) − 2·d` and the same word for `2.0`, so its
  result is the same function entry for entry (RefValue.lean). No law of arithmetic beyond `0 + s = s` is used, so the
  finiteness of the inputs is never opened.

  The three frames are the generated ones (the reference's is its generated run with the result dropped); the
  idealization rewrote nothing, so `preserves` is `True`.
-/
import proofs.«147707_j54047868452973_1_alg».proof.Defs
import proofs.«147707_j54047868452973_1_alg».proof.Proof.Gen.Kernel
import proofs.«147707_j54047868452973_1_alg».proof.Proof.Gen.Kernel.Skeleton
import proofs.«147707_j54047868452973_1_alg».proof.Proof.Gen.Kernel.Launch
import proofs.«147707_j54047868452973_1_alg».proof.Proof.Gen.Kernel.Points
import proofs.«147707_j54047868452973_1_alg».proof.Proof.Gen.Kernel.Frame
import proofs.«147707_j54047868452973_1_alg».proof.Proof.Gen.KernelIdeal
import proofs.«147707_j54047868452973_1_alg».proof.Proof.Gen.KernelIdeal.Skeleton
import proofs.«147707_j54047868452973_1_alg».proof.Proof.Gen.KernelIdeal.Launch
import proofs.«147707_j54047868452973_1_alg».proof.Proof.Gen.KernelIdeal.Points
import proofs.«147707_j54047868452973_1_alg».proof.Proof.Gen.KernelIdeal.Frame
import proofs.«147707_j54047868452973_1_alg».proof.Proof.Gen.ReferenceIdeal
import proofs.«147707_j54047868452973_1_alg».proof.Proof.Gen.Pre_finite_inputs
import proofs.«147707_j54047868452973_1_alg».proof.Proof.Gen.KernelIdeal.Value
import proofs.«147707_j54047868452973_1_alg».proof.Proof.Gen.ReferenceIdeal.Run
import proofs.«147707_j54047868452973_1_alg».proof.Proof.Gen.ReferenceIdeal.Read
import proofs.«147707_j54047868452973_1_alg».proof.Proof.Blocks
import proofs.«147707_j54047868452973_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the expanded squared distance of the (agreeing) arguments in their result arrays. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.Hand.ref_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
